-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S256x256 : Shape := ⟨2, ![256, 256]⟩
abbrev S256 : Shape := ⟨1, ![256]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256x256 .f32) (main_arg6 : FVec F S256x256 .f32) (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S32x4096 .f32) (main_arg1 : FVec F S32x4096 .f32) (main_arg2 : IVec S32x4096 32) (main_arg3 : FVec F S256x256 .f32) (main_arg4 : FVec F S256x256 .f32) (main_arg5 : FVec F S256x256 .f32) (main_arg6 : FVec F S256x256 .f32) (main_arg7 : FVec F S256 .f32) (main_arg8 : FVec F S256x256 .f32) (main_arg9 : FVec F S256 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S32x4096 : Shape := ⟨2, ![32, 4096]⟩
abbrev S256x256 : Shape := ⟨2, ![256, 256]⟩
abbrev S256 : Shape := ⟨1, ![256]⟩
abbrev S256x512 : Shape := ⟨2, ![256, 512]⟩
abbrev S512x512 : Shape := ⟨2, ![512, 512]⟩
abbrev S_ : Shape := ⟨0, ![]⟩
abbrev S32x4096x256 : Shape := ⟨3, ![32, 4096, 256]⟩
abbrev S8x256 : Shape := ⟨2, ![8, 256]⟩
abbrev S8x256x256 : Shape := ⟨3, ![8, 256, 256]⟩
abbrev S8x256x1 : Shape := ⟨3, ![8, 256, 1]⟩
abbrev S1x1x256 : Shape := ⟨3, ![1, 1, 256]⟩
abbrev S2048x256 : Shape := ⟨2, ![2048, 256]⟩
abbrev S2048x512 : Shape := ⟨2, ![2048, 512]⟩

abbrev nBuf : Space → Nat
  | .hbm => 20
  | .vmem => 10
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .i32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x512, .f32⟩
  | .hbm, ⟨11, _⟩ => ⟨S256x512, .f32⟩
  | .hbm, ⟨12, _⟩ => ⟨S512x512, .f32⟩
  | .hbm, ⟨13, _⟩ => ⟨S512x512, .bf16⟩
  | .hbm, ⟨14, _⟩ => ⟨S256x256, .f32⟩
  | .hbm, ⟨15, _⟩ => ⟨S256x256, .bf16⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S32x4096x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S256, .f32⟩
  | .local _ .vmem, ⟨5, _⟩ => ⟨S512x512, .bf16⟩
  | .local _ .vmem, ⟨6, _⟩ => ⟨S256, .f32⟩
  | .local _ .vmem, ⟨7, _⟩ => ⟨S256x256, .bf16⟩
  | .local _ .vmem, ⟨8, _⟩ => ⟨S8x256x256, .f32⟩
  | .local _ .vmem, ⟨9, _⟩ => ⟨S8x256x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S256x256_S256x256_S256x512_d1 : Shape.Concatenates [S256x256, S256x256] S256x512 1
  concatenates_S256x512_S256x512_S512x512_d0 : Shape.Concatenates [S256x512, S256x512] S512x512 0
  bitsLt_bf16_f32 : FTy.bits .bf16 < FTy.bits .f32
  transposes_S256x256_S256x256_1_0 : S256x256.Transposes [1, 0] S256x256
  bcast_S_S256 : S_.BroadcastsInDim S256 (![] : Fin 0 → Fin S256.rank)
  inb_S8x256_S8x256_0_0 : ∀ a, (![0, 0] : Fin 2 → Nat) a + S8x256.size a ≤ S8x256.size a
  h_S8x256 : 0 < S8x256.numel
  inb_S256_S256_0 : ∀ a, (![0] : Fin 1 → Nat) a + S256.size a ≤ S256.size a
  h_S256 : 0 < S256.numel
  shapeCasts_S256_S256 : S256.ShapeCasts S256
  shapeCasts_S8x256_S8x256x1 : S8x256.ShapeCasts S8x256x1
  shapeCasts_S256_S1x1x256 : S256.ShapeCasts S1x1x256
  broadcasts_S8x256x1_S8x256x256 : S8x256x1.Broadcasts S8x256x256
  broadcasts_S1x1x256_S8x256x256 : S1x1x256.Broadcasts S8x256x256
  shapeCasts_S8x256x256_S2048x256 : S8x256x256.ShapeCasts S2048x256
  concatenates_S2048x256_S2048x256_S2048x512_d1 : Shape.Concatenates [S2048x256, S2048x256] S2048x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2048x512_o0_0_S2048x256 : S2048x512.Slices ![0, 0] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S8x256x256 : S2048x256.ShapeCasts S8x256x256
  inb_S8x256x256_S8x256x256_0_0_0 : ∀ a, (![0, 0, 0] : Fin 3 → Nat) a + S8x256x256.size a ≤ S8x256x256.size a
  h_S8x256x256 : 0 < S8x256x256.numel
  dot_S2048x512_S512x512_S2048x512_1_0_0_1_n_n_wf : DotDims.WF S2048x512 S512x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S32x4096.size a
  hwx0_0 : ∀ i : grid0.Coords, EltTy.bits .f32 = 32 ∨ (Rect.block (s := S32x4096) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x4096.size a
  hwx0_1 : ∀ i : grid0.Coords, EltTy.bits .f32 = 32 ∨ (Rect.block (s := S32x4096) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x256.size a ≤ S32x4096x256.size a
  hwx0_6 : ∀ i : grid0.Coords, EltTy.bits .f32 = 32 ∨ (Rect.block (s := S32x4096x256) S8x256x256.size (cc0_transform_6 i) (hinb0_6 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x4096 : Shape := ⟨2, ![32, 4096]⟩
abbrev S256x256 : Shape := ⟨2, ![256, 256]⟩
abbrev S256 : Shape := ⟨1, ![256]⟩
abbrev S32x4096x1 : Shape := ⟨3, ![32, 4096, 1]⟩
abbrev S_ : Shape := ⟨0, ![]⟩
abbrev S1x1x256 : Shape := ⟨3, ![1, 1, 256]⟩
abbrev S32x4096x256 : Shape := ⟨3, ![32, 4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .i32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S32x4096x1, .f32⟩
  | .hbm, ⟨11, _⟩ => ⟨S_, .f32⟩
  | .hbm, ⟨12, _⟩ => ⟨S32x4096x1, .f32⟩
  | .hbm, ⟨13, _⟩ => ⟨S32x4096x1, .f32⟩
  | .hbm, ⟨14, _⟩ => ⟨S1x1x256, .f32⟩
  | .hbm, ⟨15, _⟩ => ⟨S32x4096x256, .f32⟩
  | .hbm, ⟨16, _⟩ => ⟨S32x4096x256, .f32⟩
  | .hbm, ⟨17, _⟩ => ⟨S32x4096x256, .f32⟩
  | .hbm, ⟨18, _⟩ => ⟨S32x4096x256, .f32⟩
  | .hbm, ⟨19, _⟩ => ⟨S32x4096x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | .hbm, ⟨23, _⟩ => ⟨S32x4096x256, .f32⟩
  | .hbm, ⟨24, _⟩ => ⟨S32x4096x256, .f32⟩
  | .hbm, ⟨25, _⟩ => ⟨S32x4096x256, .f32⟩
  | .hbm, ⟨26, _⟩ => ⟨S32x4096x256, .f32⟩
  | .hbm, ⟨27, _⟩ => ⟨S32x4096x1, .f32⟩
  | .hbm, ⟨28, _⟩ => ⟨S1x1x256, .f32⟩
  | .hbm, ⟨29, _⟩ => ⟨S32x4096x256, .f32⟩
  | .hbm, ⟨30, _⟩ => ⟨S32x4096x256, .f32⟩
  | .hbm, ⟨31, _⟩ => ⟨S32x4096x256, .f32⟩
  | .hbm, ⟨32, _⟩ => ⟨S32x4096x256, .f32⟩
  | .hbm, ⟨33, _⟩ => ⟨S32x4096x256, .f32⟩
  | .hbm, ⟨34, _⟩ => ⟨S32x4096x256, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S256_S1x1x256_2 : S256.BroadcastsInDim S1x1x256 (![2] : Fin 1 → Fin S1x1x256.rank)
  bcast_S32x4096x1_S32x4096x256_0_1_2 : S32x4096x1.BroadcastsInDim S32x4096x256 (![0, 1, 2] : Fin 3 → Fin S32x4096x256.rank)
  bcast_S1x1x256_S32x4096x256_0_1_2 : S1x1x256.BroadcastsInDim S32x4096x256 (![0, 1, 2] : Fin 3 → Fin S32x4096x256.rank)
  dot_S32x4096x256_S256x256_S32x4096x256_2_0_01_1_n_n_wf : DotDims.WF S32x4096x256 S256x256 S32x4096x256 [2] [0] [0, 1] [1] [] []
  dot_S32x4096x256_S256x256_S32x4096x256_2_1_01_0_n_n_wf : DotDims.WF S32x4096x256 S256x256 S32x4096x256 [2] [1] [0, 1] [0] [] []

variable [Facts₀]

def dot_S32x4096x256_S256x256_S32x4096x256_2_0_01_1_n_n : DotDims S32x4096x256 S256x256 S32x4096x256 where
  lhsContracting := [2]
  rhsContracting := [0]
  lhsNonContracting := [0, 1]
  rhsNonContracting := [1]
  lhsBatch := []
  rhsBatch := []
  wf := dot_S32x4096x256_S256x256_S32x4096x256_2_0_01_1_n_n_wf
def dot_S32x4096x256_S256x256_S32x4096x256_2_1_01_0_n_n : DotDims S32x4096x256 S256x256 S32x4096x256 where
  lhsContracting := [2]
  rhsContracting := [1]
  lhsNonContracting := [0, 1]
  rhsNonContracting := [0]
  lhsBatch := []
  rhsBatch := []
  wf := dot_S32x4096x256_S256x256_S32x4096x256_2_1_01_0_n_n_wf

class Facts : Prop extends Facts₀ where

variable [Facts]
-- ==== Proof.Relayout.lean ====
/-
  The re-laying operations of the tile, read at an index.

  One grid point works on a tile of 8 × 256 positions (p, q) and 256 features.  Inside the body the tile is seen in
  two arrangements: as a cube [8, 256, 256] indexed (p, q, e), and flattened to a matrix [2048, 256] whose row
  `p · 256 + q` holds position (p, q).  The two feature-wise stackings of the body — the sines beside the cosines,
  and the two halves of the fused product — put column `e` of the first half at `e` and of the second at `256 + e`.
  Each lemma here says which entry of its operand one of these operations reads at a given index; all of them are
  statements about positions only, for any kind of entry.
-/
import Idealize.ShloMosaic.Lib.Pipeline.Value
import Idealize.ShloMosaic.Lib.ValueIdx
import Idealize.ShloMosaic.Lib.ValueLayout

noncomputable section

namespace Cert.TimeFilm

open Idealize.ShloMosaic Idealize.ShloMosaic.ValueIdx

variable {α : Type}

/-- The row of the flattened tile that holds position (p, q). -/
def row (p : Fin 8) (q : Fin 256) : Fin 2048 := ⟨p.val * 256 + q.val, by have := p.isLt; have := q.isLt; omega⟩

/-- Column `e` of the first half of a 512-wide stacking. -/
def lo (e : Fin 256) : Fin 512 := ⟨e.val, by have := e.isLt; omega⟩

/-- Column `e` of the second half of a 512-wide stacking. -/
def hi (e : Fin 256) : Fin 512 := ⟨256 + e.val, by have := e.isLt; omega⟩

/-! ## Cube and matrix -/

/-- The cube flattened to a matrix reads, at (row p q, e), the cube at (p, q, e). -/
theorem flatten_apply (x : (⟨3, ![8, 256, 256]⟩ : Shape).Idx → α)
    (h : (⟨3, ![8, 256, 256]⟩ : Shape).ShapeCasts ⟨2, ![2048, 256]⟩) (p : Fin 8) (q e : Fin 256) :
    shapeCast ⟨2, ![2048, 256]⟩ x h (ix2 (row p q) e) = x (ix3 p q e) :=
  shapeCast_apply x h _ _ (by
    rw [Shape.rowMajor_val_three, Shape.rowMajor_val_two]
    rfl)

/-- The matrix folded back to a cube reads, at (p, q, f), the matrix at (row p q, f). -/
theorem unflatten_apply (x : (⟨2, ![2048, 256]⟩ : Shape).Idx → α)
    (h : (⟨2, ![2048, 256]⟩ : Shape).ShapeCasts ⟨3, ![8, 256, 256]⟩) (p : Fin 8) (q f : Fin 256) :
    shapeCast ⟨3, ![8, 256, 256]⟩ x h (ix3 p q f) = x (ix2 (row p q) f) :=
  shapeCast_apply x h _ _ (by
    rw [Shape.rowMajor_val_three, Shape.rowMajor_val_two]
    rfl)

/-! ## A tile and a feature vector spread over the cube -/

/-- An 8 × 256 tile given a trailing unit axis and spread along the features reads, at (p, q, e), the tile at (p, q). -/
theorem spread_tile_apply (x : (⟨2, ![8, 256]⟩ : Shape).Idx → α)
    (h : (⟨2, ![8, 256]⟩ : Shape).ShapeCasts ⟨3, ![8, 256, 1]⟩)
    (hb : (⟨3, ![8, 256, 1]⟩ : Shape).Broadcasts ⟨3, ![8, 256, 256]⟩) (p : Fin 8) (q e : Fin 256) :
    broadcastTo ⟨3, ![8, 256, 256]⟩ (shapeCast ⟨3, ![8, 256, 1]⟩ x h) hb (ix3 p q e) = x (ix2 p q) := by
  refine (broadcastTo_apply _ hb (ix3 p q e) (ix3 p q (0 : Fin 1)) fun a => ?_).trans ?_
  · match a with
    | ⟨0, _⟩ => show p.val = if (8 : Nat) = 1 then 0 else p.val; rw [if_neg (by decide)]
    | ⟨1, _⟩ => show q.val = if (256 : Nat) = 1 then 0 else q.val; rw [if_neg (by decide)]
    | ⟨2, _⟩ => show 0 = if (1 : Nat) = 1 then 0 else e.val; rw [if_pos rfl]
  · exact shapeCast_apply x h _ _ (by
      rw [Shape.rowMajor_val_two, Shape.rowMajor_val_three]
      show p.val * 256 + q.val = (p.val * 256 + q.val) * 1 + 0
      omega)

/-- A vector of 256 features given two leading unit axes and spread over the positions reads, at (p, q, e), the
    vector at e. -/
theorem spread_feature_apply (x : (⟨1, ![256]⟩ : Shape).Idx → α)
    (h : (⟨1, ![256]⟩ : Shape).ShapeCasts ⟨3, ![1, 1, 256]⟩)
    (hb : (⟨3, ![1, 1, 256]⟩ : Shape).Broadcasts ⟨3, ![8, 256, 256]⟩) (p : Fin 8) (q e : Fin 256) :
    broadcastTo ⟨3, ![8, 256, 256]⟩ (shapeCast ⟨3, ![1, 1, 256]⟩ x h) hb (ix3 p q e) = x (ix1 e) := by
  refine (broadcastTo_apply _ hb (ix3 p q e) (ix3 (0 : Fin 1) (0 : Fin 1) e) fun a => ?_).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show e.val = if (256 : Nat) = 1 then 0 else e.val; rw [if_neg (by decide)]
  · exact shapeCast_apply x h _ _ (by
      rw [Shape.rowMajor_val_one, Shape.rowMajor_val_three]
      show e.val = (0 * 1 + 0) * 256 + e.val
      omega)

/-! ## Two matrices side by side, or one above the other -/

/-- Two matrices set side by side read, in a column of the first, the first. -/
theorem concat_cols_left {r a b c : ℕ} (x₁ : (⟨2, ![r, a]⟩ : Shape).Idx → α) (x₂ : (⟨2, ![r, b]⟩ : Shape).Idx → α)
    (h : Shape.Concatenates [⟨2, ![r, a]⟩, ⟨2, ![r, b]⟩] ⟨2, ![r, c]⟩ 1) (m : Fin r) (j : Fin c) (k : Fin a)
    (hj : j.val = k.val) :
    concatenate ⟨2, ![r, c]⟩ 1 [⟨⟨2, ![r, a]⟩, x₁⟩, ⟨⟨2, ![r, b]⟩, x₂⟩] h (ix2 m j) = x₁ (ix2 m k) :=
  concatenate_pair_apply_left 1 x₁ x₂ h _ rfl _ (fun d => match d with | ⟨0, _⟩ => rfl | ⟨1, _⟩ => hj.symm)

/-- Two matrices set side by side read, in a column past the first's width, the second, that width less. -/
theorem concat_cols_right {r a b c : ℕ} (x₁ : (⟨2, ![r, a]⟩ : Shape).Idx → α) (x₂ : (⟨2, ![r, b]⟩ : Shape).Idx → α)
    (h : Shape.Concatenates [⟨2, ![r, a]⟩, ⟨2, ![r, b]⟩] ⟨2, ![r, c]⟩ 1) (m : Fin r) (j : Fin c) (k : Fin b)
    (hj : j.val = a + k.val) :
    concatenate ⟨2, ![r, c]⟩ 1 [⟨⟨2, ![r, a]⟩, x₁⟩, ⟨⟨2, ![r, b]⟩, x₂⟩] h (ix2 m j) = x₂ (ix2 m k) :=
  concatenate_pair_apply_right 1 x₁ x₂ h _ rfl rfl _
    (fun d hd => match d, hd with | ⟨0, _⟩, _ => rfl | ⟨1, _⟩, hd => absurd rfl hd)
    (by show k.val + a = j.val; omega)

/-- Two matrices set one above the other read, in a row of the first, the first. -/
theorem concat_rows_left {a b r c : ℕ} (x₁ : (⟨2, ![a, c]⟩ : Shape).Idx → α) (x₂ : (⟨2, ![b, c]⟩ : Shape).Idx → α)
    (h : Shape.Concatenates [⟨2, ![a, c]⟩, ⟨2, ![b, c]⟩] ⟨2, ![r, c]⟩ 0) (i : Fin r) (k : Fin a) (e : Fin c)
    (hi : i.val = k.val) :
    concatenate ⟨2, ![r, c]⟩ 0 [⟨⟨2, ![a, c]⟩, x₁⟩, ⟨⟨2, ![b, c]⟩, x₂⟩] h (ix2 i e) = x₁ (ix2 k e) :=
  concatenate_pair_apply_left 0 x₁ x₂ h _ rfl _ (fun d => match d with | ⟨0, _⟩ => hi.symm | ⟨1, _⟩ => rfl)

/-- Two matrices set one above the other read, in a row past the first's height, the second, that height less. -/
theorem concat_rows_right {a b r c : ℕ} (x₁ : (⟨2, ![a, c]⟩ : Shape).Idx → α) (x₂ : (⟨2, ![b, c]⟩ : Shape).Idx → α)
    (h : Shape.Concatenates [⟨2, ![a, c]⟩, ⟨2, ![b, c]⟩] ⟨2, ![r, c]⟩ 0) (i : Fin r) (k : Fin b) (e : Fin c)
    (hi : i.val = a + k.val) :
    concatenate ⟨2, ![r, c]⟩ 0 [⟨⟨2, ![a, c]⟩, x₁⟩, ⟨⟨2, ![b, c]⟩, x₂⟩] h (ix2 i e) = x₂ (ix2 k e) :=
  concatenate_pair_apply_right 0 x₁ x₂ h _ rfl rfl _
    (fun d hd => match d, hd with | ⟨0, _⟩, hd => absurd rfl hd | ⟨1, _⟩, _ => rfl)
    (by show k.val + a = i.val; omega)

/-- A band of columns cut out of a matrix, starting at column `o`, reads at (m, e) the matrix at (m, o + e). -/
theorem slice_cols_apply {r c w : ℕ} (o : ℕ) (x : (⟨2, ![r, c]⟩ : Shape).Idx → α)
    (h : (⟨2, ![r, c]⟩ : Shape).Slices ![0, o] ⟨2, ![r, w]⟩) (m : Fin r) (e : Fin w) (j : Fin c)
    (hj : j.val = o + e.val) :
    extractStridedSlice ⟨2, ![r, w]⟩ ![0, o] x h (ix2 m e) = x (ix2 m j) :=
  extractStridedSlice_apply _ x h _ _ (fun a => match a with
    | ⟨0, _⟩ => by show m.val = 0 + m.val; omega
    | ⟨1, _⟩ => hj)

end Cert.TimeFilm

end
-- ==== Proof.Film.lean ====
/-
  The function both programs compute, at one position and one output feature.

  Fix a position of the sequence and an output feature.  Let θ h be the position's angle at harmonic h, let
  A, B, V, W be the four 256 × 256 weight matrices, ξ the position's input sample, lw the 256 weights of the
  input projection, and L e the output projection's weight from hidden feature e to the chosen output feature.
  The value is

      Σ_e ( ξ · lw e · tanh( Σ_h sin(θ h) · A h e + Σ_h cos(θ h) · B h e )
                        + ( Σ_h sin(θ h) · V h e + Σ_h cos(θ h) · W h e ) ) · L e

  over the extended reals.  One program forms the two inner sums of each pair as ONE sum over 512 stacked terms
  (sines first, cosines after): a sum over 512 terms is the sum over its first 256 plus the sum over its last 256,
  in any commutative monoid, so nothing about finiteness is used.
-/
import Idealize.ShloMosaic.PureOps.Ideal
import proofs.«139290_j79319456022770_2_alg».proof.Proof.Relayout

noncomputable section

namespace Cert.TimeFilm

open Idealize.ShloMosaic

/-- The value at one position and one output feature, from the position's angles `θ`, the weights `A B V W`, the
    input sample `ξ`, the input projection `lw` and the output projection's column `L`. -/
def film (θ : Fin 256 → EReal) (A B V W : Fin 256 → Fin 256 → EReal) (ξ : EReal) (lw L : Fin 256 → EReal) : EReal :=
  ∑ e : Fin 256,
    (ξ * lw e * Ideal.tanh ((∑ h : Fin 256, Ideal.sin (θ h) * A h e) + ∑ h : Fin 256, Ideal.cos (θ h) * B h e)
      + ((∑ h : Fin 256, Ideal.sin (θ h) * V h e) + ∑ h : Fin 256, Ideal.cos (θ h) * W h e)) * L e

/-- The value depends on its data entry by entry. -/
theorem film_congr {θ θ' : Fin 256 → EReal} {A A' B B' V V' W W' : Fin 256 → Fin 256 → EReal} {ξ ξ' : EReal}
    {lw lw' L L' : Fin 256 → EReal} (hθ : ∀ h, θ h = θ' h) (hA : ∀ h e, A h e = A' h e) (hB : ∀ h e, B h e = B' h e)
    (hV : ∀ h e, V h e = V' h e) (hW : ∀ h e, W h e = W' h e) (hξ : ξ = ξ') (hlw : ∀ e, lw e = lw' e)
    (hL : ∀ e, L e = L' e) : film θ A B V W ξ lw L = film θ' A' B' V' W' ξ' lw' L' := by
  obtain rfl : θ = θ' := funext hθ
  obtain rfl : A = A' := funext fun h => funext (hA h)
  obtain rfl : B = B' := funext fun h => funext (hB h)
  obtain rfl : V = V' := funext fun h => funext (hV h)
  obtain rfl : W = W' := funext fun h => funext (hW h)
  obtain rfl : lw = lw' := funext hlw
  obtain rfl : L = L' := funext hL
  rw [hξ]

/-- A sum over 512 stacked terms is the sum over the first half plus the sum over the second half. -/
theorem sum_halves (g : Fin 512 → EReal) :
    ∑ k : Fin 512, g k = (∑ h : Fin 256, g (lo h)) + ∑ h : Fin 256, g (hi h) :=
  Fin.sum_univ_add (M := EReal) (a := 256) (b := 256) g

end Cert.TimeFilm

end
-- ==== Proof.TileValue.lean ====
/-
  What the body computes for one tile, read at one entry.

  A grid point holds an 8 × 256 tile of time stamps `tt` and of input samples `xx`, the 256 scaled frequencies
  `ns`, the fused 512 × 512 weight matrix `wf`, the 256 weights `lw` of the input projection and the 256 × 256
  output projection `pj`.  The body forms the cube of angles tt(p, q) · ns(h); flattens its sines and its cosines
  to 2048 × 256 matrices (row p · 256 + q) and sets them side by side; multiplies the 2048 × 512 result by `wf`;
  takes tanh of the left half of the product, multiplies it by xx(p, q) · lw(e) and adds the right half; multiplies
  by `pj`; and folds the 2048 rows back to the tile.  Read at (p, q, f) this is the function `film` of the
  tile's entries at (p, q), with the four quarters of `wf` as the four weight matrices: each product with a matrix
  is the plain sum over the contracted axis on the extended reals, changes of float format are the identity, and
  the 512-term sums split into their sine and cosine halves.
-/
import proofs.«139290_j79319456022770_2_alg».proof.Proof.Gen.KernelIdeal.Skeleton
import proofs.«139290_j79319456022770_2_alg».proof.Proof.Relayout
import proofs.«139290_j79319456022770_2_alg».proof.Proof.Film
import Idealize.ShloMosaic.PureOps.Ideal.Laws
import Idealize.ShloMosaic.Lib.ValueIdx
import Idealize.ShloMosaic.Lib.Pipeline.Value

noncomputable section

namespace Cert.TimeFilm

open Idealize.ShloMosaic Idealize.ShloMosaic.ValueIdx Cert.KernelIdeal Cert.KernelIdeal.Gen

/-! ## The two matrix products as sums over the contracted axis -/

theorem wide_lhs0 (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem wide_lhs1 (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
theorem wide_rhs0 (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
theorem wide_rhs1 (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The 2048 × 512 by 512 × 512 product into a zero accumulator is, entry by entry, the sum over the 512 contracted terms. -/
theorem wide_apply (l : FVec Ideal S2048x512 .bf16) (r : FVec Ideal S512x512 .bf16) (m : Fin 2048) (j : Fin 512) :
    matmul dot_S2048x512_S512x512_S2048x512_1_0_0_1_n_n none l r (constant S2048x512 .f32 0x00000000#32) (ix2 m j)
      = ∑ k : Fin 512, l (ix2 m k) * r (ix2 k j) := by
  refine (Ideal.matmul_constant_zero_apply dot_S2048x512_S512x512_S2048x512_1_0_0_1_n_n none l r (ix2 m j)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 m j) ((contrEquiv1 dot_S2048x512_S512x512_S2048x512_1_0_0_1_n_n 512 rfl rfl).symm k) = ix2 m k := funext fun a => Fin.ext (by
    match a with
    | ⟨0, _⟩ => exact wide_lhs0 _ _
    | ⟨1, _⟩ => exact (wide_lhs1 _ _).trans hk)
  have er : dot_S2048x512_S512x512_S2048x512_1_0_0_1_n_n.rhsIdx (ix2 m j) ((contrEquiv1 dot_S2048x512_S512x512_S2048x512_1_0_0_1_n_n 512 rfl rfl).symm k) = ix2 k j := funext fun a => Fin.ext (by
    match a with
    | ⟨0, _⟩ => exact (wide_rhs0 _ _).trans hk
    | ⟨1, _⟩ => exact wide_rhs1 _ _)
  rw [el, er]

theorem narrow_lhs0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem narrow_lhs1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
theorem narrow_rhs0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
theorem narrow_rhs1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The 2048 × 256 by 256 × 256 product into a zero accumulator is, entry by entry, the sum over the 256 contracted terms. -/
theorem narrow_apply (l : FVec Ideal S2048x256 .bf16) (r : FVec Ideal S256x256 .bf16) (m : Fin 2048) (j : Fin 256) :
    matmul dot_S2048x256_S256x256_S2048x256_1_0_0_1_n_n none l r (constant S2048x256 .f32 0x00000000#32) (ix2 m j)
      = ∑ k : Fin 256, l (ix2 m k) * r (ix2 k j) := by
  refine (Ideal.matmul_constant_zero_apply dot_S2048x256_S256x256_S2048x256_1_0_0_1_n_n none l r (ix2 m j)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 m j) ((contrEquiv1 dot_S2048x256_S256x256_S2048x256_1_0_0_1_n_n 256 rfl rfl).symm k) = ix2 m k := funext fun a => Fin.ext (by
    match a with
    | ⟨0, _⟩ => exact narrow_lhs0 _ _
    | ⟨1, _⟩ => exact (narrow_lhs1 _ _).trans hk)
  have er : dot_S2048x256_S256x256_S2048x256_1_0_0_1_n_n.rhsIdx (ix2 m j) ((contrEquiv1 dot_S2048x256_S256x256_S2048x256_1_0_0_1_n_n 256 rfl rfl).symm k) = ix2 k j := funext fun a => Fin.ext (by
    match a with
    | ⟨0, _⟩ => exact (narrow_rhs0 _ _).trans hk
    | ⟨1, _⟩ => exact narrow_rhs1 _ _)
  rw [el, er]

/-! ## Pointwise functions at an index -/

theorem sin_apply {s : Shape} {φ : FTy} (x : FVec Ideal s φ) (i : s.Idx) : sin x i = Ideal.sin (x i) := rfl
theorem cos_apply {s : Shape} {φ : FTy} (x : FVec Ideal s φ) (i : s.Idx) : cos x i = Ideal.cos (x i) := rfl
theorem tanh_apply {s : Shape} {φ : FTy} (x : FVec Ideal s φ) (i : s.Idx) : tanh x i = Ideal.tanh (x i) := rfl

/-! ## The body's stages -/

/-- The cube of angles: time stamp times scaled frequency. -/
def angles (tt : FVec Ideal S8x256 .f32) (ns : FVec Ideal S256 .f32) : FVec Ideal S8x256x256 .f32 :=
  mulf (broadcastTo S8x256x256 (shapeCast S8x256x1 tt shapeCasts_S8x256_S8x256x1) broadcasts_S8x256x1_S8x256x256)
    (broadcastTo S8x256x256 (shapeCast S1x1x256 (shapeCast S256 ns shapeCasts_S256_S256) shapeCasts_S256_S1x1x256) broadcasts_S1x1x256_S8x256x256)

theorem angles_apply (tt : FVec Ideal S8x256 .f32) (ns : FVec Ideal S256 .f32) (p : Fin 8) (q h : Fin 256) :
    angles tt ns (ix3 p q h) = tt (ix2 p q) * ns (ix1 h) := by
  unfold angles
  rw [mulf_apply, spread_tile_apply, shapeCast_self, spread_feature_apply]

/-- The sines of the angles beside their cosines, one row per position of the tile. -/
def stacked (tt : FVec Ideal S8x256 .f32) (ns : FVec Ideal S256 .f32) : FVec Ideal S2048x512 .bf16 :=
  concatenate S2048x512 1
    [⟨S2048x256, shapeCast S2048x256 (truncf .bf16 (sin (angles tt ns)) bitsLt_bf16_f32) shapeCasts_S8x256x256_S2048x256⟩,
     ⟨S2048x256, shapeCast S2048x256 (truncf .bf16 (cos (angles tt ns)) bitsLt_bf16_f32) shapeCasts_S8x256x256_S2048x256⟩]
    concatenates_S2048x256_S2048x256_S2048x512_d1

theorem stacked_lo (tt : FVec Ideal S8x256 .f32) (ns : FVec Ideal S256 .f32) (p : Fin 8) (q h : Fin 256) :
    stacked tt ns (ix2 (row p q) (lo h)) = Ideal.sin (tt (ix2 p q) * ns (ix1 h)) := by
  unfold stacked
  rw [concat_cols_left _ _ _ (row p q) (lo h) h rfl, flatten_apply, truncf_apply, sin_apply, angles_apply]

theorem stacked_hi (tt : FVec Ideal S8x256 .f32) (ns : FVec Ideal S256 .f32) (p : Fin 8) (q h : Fin 256) :
    stacked tt ns (ix2 (row p q) (hi h)) = Ideal.cos (tt (ix2 p q) * ns (ix1 h)) := by
  unfold stacked
  rw [concat_cols_right _ _ _ (row p q) (hi h) h rfl, flatten_apply, truncf_apply, cos_apply, angles_apply]

/-- The stacked sines and cosines times the fused weights. -/
def fused (tt : FVec Ideal S8x256 .f32) (ns : FVec Ideal S256 .f32) (wf : FVec Ideal S512x512 .bf16) : FVec Ideal S2048x512 .f32 :=
  matmul dot_S2048x512_S512x512_S2048x512_1_0_0_1_n_n none (stacked tt ns) (shapeCast S512x512 wf shapeCasts_S512x512_S512x512) (constant S2048x512 .f32 0x00000000#32)

/-- An entry of the fused product: the sines against the upper half of the weights' column plus the cosines
    against its lower half. -/
theorem fused_apply (tt : FVec Ideal S8x256 .f32) (ns : FVec Ideal S256 .f32) (wf : FVec Ideal S512x512 .bf16)
    (p : Fin 8) (q : Fin 256) (j : Fin 512) :
    fused tt ns wf (ix2 (row p q) j)
      = (∑ h : Fin 256, Ideal.sin (tt (ix2 p q) * ns (ix1 h)) * wf (ix2 (lo h) j))
        + ∑ h : Fin 256, Ideal.cos (tt (ix2 p q) * ns (ix1 h)) * wf (ix2 (hi h) j) := by
  unfold fused
  rw [shapeCast_self]
  refine (wide_apply _ _ (row p q) j).trans ?_
  rw [sum_halves]
  simp only [stacked_lo, stacked_hi]

/-- The modulated hidden features: sample times input weight times tanh of the left half, plus the right half. -/
def modulated (tt xx : FVec Ideal S8x256 .f32) (ns : FVec Ideal S256 .f32) (wf : FVec Ideal S512x512 .bf16)
    (lw : FVec Ideal S256 .f32) : FVec Ideal S2048x256 .f32 :=
  addf
    (mulf
      (shapeCast S2048x256
        (mulf (broadcastTo S8x256x256 (shapeCast S8x256x1 xx shapeCasts_S8x256_S8x256x1) broadcasts_S8x256x1_S8x256x256)
          (broadcastTo S8x256x256 (shapeCast S1x1x256 lw shapeCasts_S256_S1x1x256) broadcasts_S1x1x256_S8x256x256))
        shapeCasts_S8x256x256_S2048x256)
      (tanh (extractStridedSlice S2048x256 ![0, 0] (fused tt ns wf) slices_S2048x512_o0_0_S2048x256)))
    (extractStridedSlice S2048x256 ![0, 256] (fused tt ns wf) slices_S2048x512_o0_256_S2048x256)

theorem modulated_apply (tt xx : FVec Ideal S8x256 .f32) (ns : FVec Ideal S256 .f32) (wf : FVec Ideal S512x512 .bf16)
    (lw : FVec Ideal S256 .f32) (p : Fin 8) (q e : Fin 256) :
    modulated tt xx ns wf lw (ix2 (row p q) e)
      = xx (ix2 p q) * lw (ix1 e) * Ideal.tanh (fused tt ns wf (ix2 (row p q) (lo e)))
        + fused tt ns wf (ix2 (row p q) (hi e)) := by
  unfold modulated
  rw [addf_apply, mulf_apply, flatten_apply, mulf_apply, spread_tile_apply, spread_feature_apply, tanh_apply,
    slice_cols_apply 0 _ _ (row p q) e (lo e) (Nat.zero_add _).symm,
    slice_cols_apply 256 _ _ (row p q) e (hi e) rfl]

/-! ## The payload -/

/-- The body's stored value at entry (p, q, f) of the tile. -/
theorem tile_value (tt xx : FVec Ideal S8x256 .f32) (ns : FVec Ideal S256 .f32) (wf : FVec Ideal S512x512 .bf16)
    (lw : FVec Ideal S256 .f32) (pj : FVec Ideal S256x256 .bf16) (p : Fin 8) (q f : Fin 256) :
    k0_pay1 (F := Ideal) tt xx ns wf lw pj (ix3 p q f)
      = film (fun h => tt (ix2 p q) * ns (ix1 h))
          (fun h e => wf (ix2 (lo h) (lo e))) (fun h e => wf (ix2 (hi h) (lo e)))
          (fun h e => wf (ix2 (lo h) (hi e))) (fun h e => wf (ix2 (hi h) (hi e)))
          (xx (ix2 p q)) (fun e => lw (ix1 e)) (fun e => pj (ix2 e f)) := by
  show shapeCast S8x256x256
      (matmul dot_S2048x256_S256x256_S2048x256_1_0_0_1_n_n none (truncf .bf16 (modulated tt xx ns wf lw) bitsLt_bf16_f32)
        (shapeCast S256x256 pj shapeCasts_S256x256_S256x256) (constant S2048x256 .f32 0x00000000#32))
      shapeCasts_S2048x256_S8x256x256 (ix3 p q f) = _
  rw [unflatten_apply, shapeCast_self]
  refine (narrow_apply _ _ (row p q) f).trans ?_
  unfold film
  refine Finset.sum_congr rfl fun e _ => ?_
  rw [truncf_apply, modulated_apply, fused_apply, fused_apply]

end Cert.TimeFilm

end
-- ==== Proof.Whole.lean ====
/-
  The whole result as one function of the arguments.

  For batch row b, sequence position s and output feature f the result is the function `film` of: the angles
  t(b, s) · c · n(h), where c is the single-precision word nearest 2π, the same word in both programs and never
  evaluated; the four weight matrices a, b, v, w; the sample x(b, s); the input projection's weights; and row f of
  the output projection (the result is the hidden features times the TRANSPOSE of that matrix).
-/
import Idealize.ShloMosaic.Lib.ValueIdx
import proofs.«139290_j79319456022770_2_alg».proof.Proof.Film

noncomputable section

namespace Cert.TimeFilm

open Idealize.ShloMosaic Idealize.ShloMosaic.ValueIdx

/-- The constant the time stamps are scaled by: the single-precision word nearest 2π, read as the number it denotes. -/
abbrev twoPi : EReal := Ideal.ofBits .f32 0x40C90FDB#32

/-- The result array, entry by entry, from the argument arrays in the entry point's order (the unused integer
    argument left out). -/
def timeFilm (x t : (⟨2, ![32, 4096]⟩ : Shape).Idx → EReal) (a b w v : (⟨2, ![256, 256]⟩ : Shape).Idx → EReal)
    (lw : (⟨1, ![256]⟩ : Shape).Idx → EReal) (l2 : (⟨2, ![256, 256]⟩ : Shape).Idx → EReal)
    (n : (⟨1, ![256]⟩ : Shape).Idx → EReal) : (⟨3, ![32, 4096, 256]⟩ : Shape).Idx → EReal := fun i =>
  film (fun h => t (ix2 (i 0) (i 1)) * twoPi * n (ix1 h))
    (fun h e => a (ix2 h e)) (fun h e => b (ix2 h e)) (fun h e => v (ix2 h e)) (fun h e => w (ix2 h e))
    (x (ix2 (i 0) (i 1))) (fun e => lw (ix1 e)) (fun e => l2 (ix2 (i 2) e))

end Cert.TimeFilm

end
-- ==== Proof.Staged.lean ====
/-
  The three arrays the host prepares before the launch, read at an index.

  The scaled frequencies are c · n(h).  The fused weights are the 512 × 512 matrix with a beside v above b beside w,
  so its four quarters are a (upper left), v (upper right), b (lower left) and w (lower right).  The output
  projection is handed over transposed.  The changes of float format on the way are the identity on extended reals.
-/
import proofs.«139290_j79319456022770_2_alg».proof.Proof.Gen.KernelIdeal
import proofs.«139290_j79319456022770_2_alg».proof.Proof.Relayout
import proofs.«139290_j79319456022770_2_alg».proof.Proof.Whole
import Idealize.ShloMosaic.Lib.ValueIdx
import Idealize.ShloMosaic.Lib.ValueLayout
import Idealize.ShloMosaic.Lib.Pipeline.Value

noncomputable section

namespace Cert.TimeFilm

open Idealize.ShloMosaic Idealize.ShloMosaic.ValueIdx Cert.KernelIdeal Cert.KernelIdeal.Gen

/-- The frequencies scaled by the constant. -/
def scaledFreq (n : FVec Ideal S256 .f32) : FVec Ideal S256 .f32 :=
  mulf (broadcastInDim S256 ![] bcast_S_S256 (constant (F := Ideal) S_ .f32 0x40C90FDB#32)) n

theorem scaledFreq_apply (n : FVec Ideal S256 .f32) (h : Fin 256) : scaledFreq n (ix1 h) = twoPi * n (ix1 h) := by
  unfold scaledFreq
  rw [mulf_apply, broadcastInDim_apply _ bcast_S_S256 _ (ix1 h) ix0 (fun a => a.elim0), constant_apply]

/-- The four weight matrices fused into one. -/
def fusedWeights (a v b w : FVec Ideal S256x256 .f32) : FVec Ideal S512x512 .bf16 :=
  truncf .bf16
    (concatenate S512x512 0
      [⟨S256x512, concatenate S256x512 1 [⟨S256x256, a⟩, ⟨S256x256, v⟩] concatenates_S256x256_S256x256_S256x512_d1⟩,
       ⟨S256x512, concatenate S256x512 1 [⟨S256x256, b⟩, ⟨S256x256, w⟩] concatenates_S256x256_S256x256_S256x512_d1⟩]
      concatenates_S256x512_S256x512_S512x512_d0)
    bitsLt_bf16_f32

theorem fusedWeights_upper_left (a v b w : FVec Ideal S256x256 .f32) (h e : Fin 256) :
    fusedWeights a v b w (ix2 (lo h) (lo e)) = a (ix2 h e) := by
  unfold fusedWeights
  rw [truncf_apply, concat_rows_left _ _ _ (lo h) h (lo e) rfl, concat_cols_left _ _ _ h (lo e) e rfl]

theorem fusedWeights_upper_right (a v b w : FVec Ideal S256x256 .f32) (h e : Fin 256) :
    fusedWeights a v b w (ix2 (lo h) (hi e)) = v (ix2 h e) := by
  unfold fusedWeights
  rw [truncf_apply, concat_rows_left _ _ _ (lo h) h (hi e) rfl, concat_cols_right _ _ _ h (hi e) e rfl]

theorem fusedWeights_lower_left (a v b w : FVec Ideal S256x256 .f32) (h e : Fin 256) :
    fusedWeights a v b w (ix2 (hi h) (lo e)) = b (ix2 h e) := by
  unfold fusedWeights
  rw [truncf_apply, concat_rows_right _ _ _ (hi h) h (lo e) rfl, concat_cols_left _ _ _ h (lo e) e rfl]

theorem fusedWeights_lower_right (a v b w : FVec Ideal S256x256 .f32) (h e : Fin 256) :
    fusedWeights a v b w (ix2 (hi h) (hi e)) = w (ix2 h e) := by
  unfold fusedWeights
  rw [truncf_apply, concat_rows_right _ _ _ (hi h) h (hi e) rfl, concat_cols_right _ _ _ h (hi e) e rfl]

/-- The output projection, transposed. -/
def projT (l2 : FVec Ideal S256x256 .f32) : FVec Ideal S256x256 .bf16 :=
  truncf .bf16 (transpose S256x256 [1, 0] l2 transposes_S256x256_S256x256_1_0) bitsLt_bf16_f32

theorem projT_apply (l2 : FVec Ideal S256x256 .f32) (e f : Fin 256) : projT l2 (ix2 e f) = l2 (ix2 f e) := by
  unfold projT
  rw [truncf_apply, transpose_ix2_apply]

end Cert.TimeFilm

end
-- ==== Proof.KernelValue.lean ====
/-
  The kernel's result array is `timeFilm` of the arguments.

  The grid has 4 × 16 points; point (i, j) reads the 8 × 256 tiles of the time stamps and of the samples at block
  (i, j), reads the scaled frequencies, the fused weights, the input projection and the transposed output projection
  whole, and writes block (i, j, 0) of the result, an 8 × 256 × 256 cube.  Entry (p, q, f) of that cube is array
  entry (8 i + p, 256 j + q, f), and the tile entries it depends on are the array entries at (8 i + p, 256 j + q):
  so what a point writes back is its block of `timeFilm`.  The angle is t · (c · n) in the body and (t · c) · n in
  `timeFilm`: multiplication of extended reals is associative.  Every index of the result lies in the block of the
  point (⌊b / 8⌋, ⌊s / 256⌋), so the blocks cover the array.
-/
import proofs.«139290_j79319456022770_2_alg».proof.Proof.Gen.KernelIdeal.Value
import proofs.«139290_j79319456022770_2_alg».proof.Proof.TileValue
import proofs.«139290_j79319456022770_2_alg».proof.Proof.Staged
import Idealize.ShloMosaic.Lib.StableHlo.Run

noncomputable section

namespace Cert.TimeFilm.Kernel

open Cert.KernelIdeal Cert.KernelIdeal.Gen Idealize.ShloMosaic Idealize.ShloMosaic.TcCoe Idealize.SL.Sem
open Idealize.ShloMosaic.ValueIdx Idealize.ShloMosaic.StableHlo Cert.TimeFilm
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the host prepares, as the region finds them -/

theorem freq_window (c : Dev nD) : (V m c main_v7 : S256.Idx → EReal) = scaledFreq (m ((c : Thread nD τ).loc main_arg9)) := by
  dsimp only [Gen.V, Gen.hostOps0]
  after_results
  rfl

theorem weights_window (c : Dev nD) :
    (V m c main_v3 : S512x512.Idx → EReal)
      = fusedWeights (m ((c : Thread nD τ).loc main_arg3)) (m ((c : Thread nD τ).loc main_arg6)) (m ((c : Thread nD τ).loc main_arg4)) (m ((c : Thread nD τ).loc main_arg5)) := by
  dsimp only [Gen.V, Gen.hostOps0]
  after_results
  rfl

theorem proj_window (c : Dev nD) : (V m c main_v5 : S256x256.Idx → EReal) = projT (m ((c : Thread nD τ).loc main_arg8)) := by
  dsimp only [Gen.V, Gen.hostOps0]
  after_results
  rfl

/-! ## Where each window's block sits -/

/-- The printed index maps, decided over the 64 grid points: the two tiles move with the result's block on the
    batch and sequence axes, the four whole operands stay at block 0, and the result's block stays inside the array. -/
theorem idx_facts : ∀ t : Fin cfg0.N,
    win0_0.index t (0 : Fin 2) = win0_6.index t (0 : Fin 3) ∧ win0_0.index t (1 : Fin 2) = win0_6.index t (1 : Fin 3)
    ∧ win0_1.index t (0 : Fin 2) = win0_6.index t (0 : Fin 3) ∧ win0_1.index t (1 : Fin 2) = win0_6.index t (1 : Fin 3)
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (2 : Fin 3) = 0 :=
  (by decide +kernel : ∀ t : Fin grid0.N, _)

/-- Every block of the result is some point's. -/
theorem idx_onto : ∀ (q0 : Fin 4) (q1 : Fin 16), ∃ t : Fin cfg0.N, win0_6.index t = ![q0.val, q1.val, 0] :=
  (by decide +kernel : ∀ (q0 : Fin 4) (q1 : Fin 16), ∃ t : Fin grid0.N, win0_6.index t = ![q0.val, q1.val, 0])

section Blocks
variable (c : Dev nD) (t : Fin cfg0.N) (p : Fin 8) (q f : Fin 256)

/-- The sample tile's entry (p, q) is the sample at the result entry's batch row and sequence position. -/
theorem sample_block :
    iblk m c 0 t (ix2 p q) = (m ((c : Thread nD τ).loc main_arg0)) (ix2 ((((cfg0.win 6).blk t).view.emb (ix3 p q f)) 0) ((((cfg0.win 6).blk t).view.emb (ix3 p q f)) 1)) := by
  show V m c main_arg0 (((cfg0.win 0).blk t).view.emb (ix2 p q)) = _
  rw [V_main_arg0]
  obtain ⟨e00, e01, -⟩ := idx_facts t
  refine congrArg (m ((c : Thread nD τ).loc main_arg0)) (funext fun a => Fin.ext ?_)
  match a with
  | ⟨0, _⟩ => show win0_0.index t (0 : Fin 2) * 8 + 1 * p.val = win0_6.index t (0 : Fin 3) * 8 + 1 * p.val; omega
  | ⟨1, _⟩ => show win0_0.index t (1 : Fin 2) * 256 + 1 * q.val = win0_6.index t (1 : Fin 3) * 256 + 1 * q.val; omega

/-- The time tile's entry (p, q) is the time stamp at the result entry's batch row and sequence position. -/
theorem time_block :
    iblk m c 1 t (ix2 p q) = (m ((c : Thread nD τ).loc main_arg1)) (ix2 ((((cfg0.win 6).blk t).view.emb (ix3 p q f)) 0) ((((cfg0.win 6).blk t).view.emb (ix3 p q f)) 1)) := by
  show V m c main_arg1 (((cfg0.win 1).blk t).view.emb (ix2 p q)) = _
  rw [V_main_arg1]
  obtain ⟨-, -, e10, e11, -⟩ := idx_facts t
  refine congrArg (m ((c : Thread nD τ).loc main_arg1)) (funext fun a => Fin.ext ?_)
  match a with
  | ⟨0, _⟩ => show win0_1.index t (0 : Fin 2) * 8 + 1 * p.val = win0_6.index t (0 : Fin 3) * 8 + 1 * p.val; omega
  | ⟨1, _⟩ => show win0_1.index t (1 : Fin 2) * 256 + 1 * q.val = win0_6.index t (1 : Fin 3) * 256 + 1 * q.val; omega

/-- The staged frequencies are the scaled frequencies. -/
theorem freq_block (h : Fin 256) : iblk m c 2 t (ix1 h) = twoPi * (m ((c : Thread nD τ).loc main_arg9)) (ix1 h) := by
  show V m c main_v7 (((cfg0.win 2).blk t).view.emb (ix1 h)) = _
  rw [freq_window, ← scaledFreq_apply]
  obtain ⟨-, -, -, -, e2, -⟩ := idx_facts t
  refine congrArg (scaledFreq (m ((c : Thread nD τ).loc main_arg9))) (funext fun a => Fin.ext ?_)
  match a with
  | ⟨0, _⟩ => show win0_2.index t (0 : Fin 1) * 256 + 1 * h.val = h.val; omega

/-- The staged weights are the fused weights. -/
theorem weights_block (k j : Fin 512) :
    iblk m c 3 t (ix2 k j)
      = fusedWeights (m ((c : Thread nD τ).loc main_arg3)) (m ((c : Thread nD τ).loc main_arg6)) (m ((c : Thread nD τ).loc main_arg4)) (m ((c : Thread nD τ).loc main_arg5)) (ix2 k j) := by
  show V m c main_v3 (((cfg0.win 3).blk t).view.emb (ix2 k j)) = _
  rw [weights_window]
  obtain ⟨-, -, -, -, -, e30, e31, -⟩ := idx_facts t
  refine congrArg (fusedWeights (m ((c : Thread nD τ).loc main_arg3)) (m ((c : Thread nD τ).loc main_arg6)) (m ((c : Thread nD τ).loc main_arg4)) (m ((c : Thread nD τ).loc main_arg5))) (funext fun a => Fin.ext ?_)
  match a with
  | ⟨0, _⟩ => show win0_3.index t (0 : Fin 2) * 512 + 1 * k.val = k.val; omega
  | ⟨1, _⟩ => show win0_3.index t (1 : Fin 2) * 512 + 1 * j.val = j.val; omega

/-- The staged input projection is the argument. -/
theorem inweight_block (e : Fin 256) : iblk m c 4 t (ix1 e) = (m ((c : Thread nD τ).loc main_arg7)) (ix1 e) := by
  show V m c main_arg7 (((cfg0.win 4).blk t).view.emb (ix1 e)) = _
  rw [V_main_arg7]
  obtain ⟨-, -, -, -, -, -, -, e4, -⟩ := idx_facts t
  refine congrArg (m ((c : Thread nD τ).loc main_arg7)) (funext fun a => Fin.ext ?_)
  match a with
  | ⟨0, _⟩ => show win0_4.index t (0 : Fin 1) * 256 + 1 * e.val = e.val; omega

/-- The staged output projection at (e, f) is the argument at (f, e), f the result entry's feature. -/
theorem proj_block (e : Fin 256) :
    iblk m c 5 t (ix2 e f) = (m ((c : Thread nD τ).loc main_arg8)) (ix2 ((((cfg0.win 6).blk t).view.emb (ix3 p q f)) 2) e) := by
  show V m c main_v5 (((cfg0.win 5).blk t).view.emb (ix2 e f)) = _
  rw [proj_window]
  obtain ⟨-, -, -, -, -, -, -, -, e50, e51, e62⟩ := idx_facts t
  refine (congrArg (projT (m ((c : Thread nD τ).loc main_arg8))) (funext fun a => Fin.ext ?_)).trans
    ((projT_apply _ e f).trans (congrArg (m ((c : Thread nD τ).loc main_arg8)) (funext fun a => Fin.ext ?_)))
  · match a with
    | ⟨0, _⟩ => show win0_5.index t (0 : Fin 2) * 256 + 1 * e.val = e.val; omega
    | ⟨1, _⟩ => show win0_5.index t (1 : Fin 2) * 256 + 1 * f.val = f.val; omega
  · match a with
    | ⟨0, _⟩ => show f.val = win0_6.index t (2 : Fin 3) * 256 + 1 * f.val; omega
    | ⟨1, _⟩ => rfl

end Blocks

/-! ## What a point writes back, and the whole array -/

/-- The array the result ends holding. -/
def result (c : Dev nD) : Buf (Elt Ideal) ((c : Thread nD τ).loc main_v8) :=
  timeFilm (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` writes back is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz3]
  simp only [View.ld_unit_zero (S := S8x256) hz2, View.ld_unit_zero (S := S256) hz1,
    View.ld_unit_zero (S := S512x512) hz2, View.ld_unit_zero (S := S256x256) hz2]
  refine funext fun (j : S8x256x256.Idx) => ?_
  obtain ⟨p, q, f, rfl⟩ : ∃ (p : Fin 8) (q f : Fin 256), j = ix3 p q f :=
    ⟨j 0, j 1, j 2, eq_ix3 (n0 := 8) (n1 := 256) (n2 := 256) j⟩
  show k0_pay1 (iblk m c 1 t) (iblk m c 0 t) (iblk m c 2 t) (iblk m c 3 t) (iblk m c 4 t) (iblk m c 5 t) (ix3 p q f)
    = result m c (((cfg0.win 6).blk t).view.emb (ix3 p q f))
  refine (tile_value (iblk m c 1 t) (iblk m c 0 t) (iblk m c 2 t) (iblk m c 3 t) (iblk m c 4 t) (iblk m c 5 t) p q f).trans ?_
  unfold result timeFilm
  refine film_congr (fun h => ?_) (fun h e => ?_) (fun h e => ?_) (fun h e => ?_) (fun h e => ?_) ?_ (fun e => ?_) (fun e => ?_)
  · rw [time_block m c t p q f, freq_block m c t h, mul_assoc]
  · rw [weights_block, fusedWeights_upper_left]
  · rw [weights_block, fusedWeights_lower_left]
  · rw [weights_block, fusedWeights_upper_right]
  · rw [weights_block, fusedWeights_lower_right]
  · exact sample_block m c t p q f
  · exact inweight_block m c t e
  · exact proj_block m c t p q f e

/-- An index of the result is in point `t`'s block iff each coordinate is in the block's range on its axis. -/
theorem mem_blk (t : Fin cfg0.N) (i : S32x4096x256.Idx) :
    i ∈ ((cfg0.win 6).blk t).view.set ↔ ∀ a : Fin 3, win0_6.index t a * S8x256x256.size a ≤ (i a).val
      ∧ (i a).val < win0_6.index t a * S8x256x256.size a + S8x256x256.size a := by
  show i ∈ ((View.whole main_v8).slice (win0_6.rect t)).set ↔ _
  rw [View.set_slice_whole, Rect.mem_set_unit]
  exact Iff.rfl

/-- Every index of the result is in the block of the point at its batch row over 8 and sequence position over 256. -/
theorem cover (i : S32x4096x256.Idx) :
    ∃ t : Fin cfg0.N, (cfg0.win 6).flush t = true ∧ i ∈ ((cfg0.win 6).blk t).view.set := by
  have hi0 : (i 0).val < 32 := (i 0).isLt
  have hi1 : (i 1).val < 4096 := (i 1).isLt
  have hi2 : (i 2).val < 256 := (i 2).isLt
  obtain ⟨t, ht⟩ := idx_onto ⟨(i 0).val / 8, by omega⟩ ⟨(i 1).val / 256, by omega⟩
  have q0 : win0_6.index t (0 : Fin 3) = (i 0).val / 8 := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- The result array after the run. -/
theorem final (c : Dev nD) : (dats m 0 c).arrAt 6 cfg0.N = result m c :=
  (dats m 0 c).arrAt_eq_of_cover 6 (result m c) (fun t _ => flushed_eq m c t) (cover)

/-- Every weakly fair execution of the kernel's program ends with the result at `result` and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.TimeFilm.Kernel

end
-- ==== Proof.RefValue.lean ====
/-
  The reference computes `timeFilm`.

  The reference scales the time stamps by the constant and then by the frequencies, takes sines and cosines, forms
  the four products with a, b, v and w separately (each a sum over the 256 harmonics), adds them in pairs, applies
  tanh to the first pair, multiplies by x(b, s) · lp_w(e), adds the second pair and contracts the hidden features
  against row f of the output projection.  Read at an index, operation by operation, that is `film` of those
  entries: what is proved here is only that the composed index maps of its broadcasts and products pick the entries
  `timeFilm` names.
-/
import proofs.«139290_j79319456022770_2_alg».proof.Proof.Gen.ReferenceIdeal.Read
import proofs.«139290_j79319456022770_2_alg».proof.Proof.Whole

noncomputable section

namespace Cert.TimeFilm.Ref

open Idealize.ShloMosaic Idealize.ShloMosaic.ValueIdx Cert.ReferenceIdeal Cert.ReferenceIdeal.Read Cert.TimeFilm

/-! ## Which entries the composed index maps pick -/

section
variable (i : S32x4096x256.Idx) (e h : Fin 256)

theorem sample_idx : idx_main_v16 (idx_main_v18 (lidx_main_v23 i e)) = ix2 (i 0) (i 1) :=
  funext fun a => Fin.ext (by match a with | ⟨0, _⟩ => rfl | ⟨1, _⟩ => rfl)
theorem inweight_idx : idx_main_v17 (idx_main_v19 (lidx_main_v23 i e)) = ix1 e :=
  funext fun a => Fin.ext (by match a with | ⟨0, _⟩ => rfl)
theorem outweight_idx : ridx_main_v23 i e = ix2 (i 2) e :=
  funext fun a => Fin.ext (by match a with | ⟨0, _⟩ => rfl | ⟨1, _⟩ => rfl)

theorem weight_idx9 : ridx_main_v9 (lidx_main_v23 i e) h = ix2 h e :=
  funext fun a => Fin.ext (by match a with | ⟨0, _⟩ => rfl | ⟨1, _⟩ => rfl)
theorem time_idx9 : idx_main_v0 (idx_main_v4 (lidx_main_v9 (lidx_main_v23 i e) h)) = ix2 (i 0) (i 1) :=
  funext fun a => Fin.ext (by match a with | ⟨0, _⟩ => rfl | ⟨1, _⟩ => rfl)
theorem freq_idx9 : idx_main_v3 (idx_main_v5 (lidx_main_v9 (lidx_main_v23 i e) h)) = ix1 h :=
  funext fun a => Fin.ext (by match a with | ⟨0, _⟩ => rfl)

theorem weight_idx10 : ridx_main_v10 (lidx_main_v23 i e) h = ix2 h e :=
  funext fun a => Fin.ext (by match a with | ⟨0, _⟩ => rfl | ⟨1, _⟩ => rfl)
theorem time_idx10 : idx_main_v0 (idx_main_v4 (lidx_main_v10 (lidx_main_v23 i e) h)) = ix2 (i 0) (i 1) :=
  funext fun a => Fin.ext (by match a with | ⟨0, _⟩ => rfl | ⟨1, _⟩ => rfl)
theorem freq_idx10 : idx_main_v3 (idx_main_v5 (lidx_main_v10 (lidx_main_v23 i e) h)) = ix1 h :=
  funext fun a => Fin.ext (by match a with | ⟨0, _⟩ => rfl)

theorem weight_idx13 : ridx_main_v13 (lidx_main_v23 i e) h = ix2 h e :=
  funext fun a => Fin.ext (by match a with | ⟨0, _⟩ => rfl | ⟨1, _⟩ => rfl)
theorem time_idx13 : idx_main_v0 (idx_main_v4 (lidx_main_v13 (lidx_main_v23 i e) h)) = ix2 (i 0) (i 1) :=
  funext fun a => Fin.ext (by match a with | ⟨0, _⟩ => rfl | ⟨1, _⟩ => rfl)
theorem freq_idx13 : idx_main_v3 (idx_main_v5 (lidx_main_v13 (lidx_main_v23 i e) h)) = ix1 h :=
  funext fun a => Fin.ext (by match a with | ⟨0, _⟩ => rfl)

theorem weight_idx14 : ridx_main_v14 (lidx_main_v23 i e) h = ix2 h e :=
  funext fun a => Fin.ext (by match a with | ⟨0, _⟩ => rfl | ⟨1, _⟩ => rfl)
theorem time_idx14 : idx_main_v0 (idx_main_v4 (lidx_main_v14 (lidx_main_v23 i e) h)) = ix2 (i 0) (i 1) :=
  funext fun a => Fin.ext (by match a with | ⟨0, _⟩ => rfl | ⟨1, _⟩ => rfl)
theorem freq_idx14 : idx_main_v3 (idx_main_v5 (lidx_main_v14 (lidx_main_v23 i e) h)) = ix1 h :=
  funext fun a => Fin.ext (by match a with | ⟨0, _⟩ => rfl)

end

/-! ## The reference's term -/

/-- The reference's result, as a function of its arguments, is `timeFilm` of them. -/
theorem reference_eq (x0 x1 : (⟨S32x4096, .f32⟩ : BufTy).Contents (Elt Ideal))
    (x3 x4 x5 x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v23 (F := Ideal) x0 x1 x3 x4 x5 x6 x7 x8 x9 = timeFilm x0 x1 x3 x4 x5 x6 x7 x8 x9 := by
  funext i
  rw [val_main_v23_apply]
  unfold timeFilm film
  refine Finset.sum_congr rfl fun e _ => ?_
  rw [val_main_v22_apply, val_main_v21_apply, val_main_v20_apply, val_main_v18_apply, val_main_v16_apply,
    val_main_v19_apply, val_main_v17_apply, val_main_v12_apply, val_main_v11_apply, val_main_v9_apply,
    val_main_v10_apply, val_main_v15_apply, val_main_v13_apply, val_main_v14_apply]
  simp only [val_main_v7_apply, val_main_v8_apply, val_main_v6_apply, val_main_v4_apply, val_main_v2_apply,
    val_main_v0_apply, val_main_v1_apply, val_main_cst_apply, val_main_v5_apply, val_main_v3_apply,
    sample_idx, inweight_idx, outweight_idx,
    weight_idx9, time_idx9, freq_idx9, weight_idx10, time_idx10, freq_idx10,
    weight_idx13, time_idx13, freq_idx13, weight_idx14, time_idx14, freq_idx14,
    Ideal.mulf_def, Ideal.addf_def, Ideal.hostUnary_sin_def, Ideal.hostUnary_cos_def, Ideal.hostUnary_tanh_def]
  rfl

end Cert.TimeFilm.Ref

end
-- ==== Proof.lean ====
/-
  The kernel and its reference compute the same array on the extended reals.

  Both programs take time stamps t and samples x over 32 × 4096 positions, four 256 × 256 weight matrices a, b, w, v,
  input-projection weights lp_w, an output projection lp2_w and 256 frequencies n, and return, at position (b, s) and
  output feature f,

      Σ_e ( x(b,s) · lp_w(e) · tanh( Σ_h sin θ_h · a(h,e) + Σ_h cos θ_h · b(h,e) )
                              + ( Σ_h sin θ_h · v(h,e) + Σ_h cos θ_h · w(h,e) ) ) · lp2_w(f,e),

  with θ_h the time stamp times 2π (one single-precision word, the same in both) times n(h).  The reference computes
  this with four separate products; the kernel works tile by tile, stacks sines beside cosines and multiplies once by
  the four matrices fused into one 512 × 512 matrix, and scales the frequencies by the constant before the launch.
  The two differ by the grouping of a product of three factors and by splitting sums of 512 terms into halves — both
  valid for all extended reals, so the finiteness of the inputs is never used.  The module `TileValue` reads the
  body at an entry, `Staged` the arrays the host prepares, `KernelValue` assembles the kernel's array from its
  blocks, and `RefValue` reads the reference; both are the function `timeFilm` of `Whole`.
  The kernel's own program needs no idealizing rewrite, so that conjunct is trivial; the three frames are the
  generated frame proofs and the reference's generated run.
-/
import proofs.«139290_j79319456022770_2_alg».proof.Defs
import proofs.«139290_j79319456022770_2_alg».proof.Proof.Gen.Kernel
import proofs.«139290_j79319456022770_2_alg».proof.Proof.Gen.Kernel.Skeleton
import proofs.«139290_j79319456022770_2_alg».proof.Proof.Gen.Kernel.Launch
import proofs.«139290_j79319456022770_2_alg».proof.Proof.Gen.Kernel.Points
import proofs.«139290_j79319456022770_2_alg».proof.Proof.Gen.Kernel.Frame
import proofs.«139290_j79319456022770_2_alg».proof.Proof.Gen.KernelIdeal
import proofs.«139290_j79319456022770_2_alg».proof.Proof.Gen.KernelIdeal.Skeleton
import proofs.«139290_j79319456022770_2_alg».proof.Proof.Gen.KernelIdeal.Launch
import proofs.«139290_j79319456022770_2_alg».proof.Proof.Gen.KernelIdeal.Points
import proofs.«139290_j79319456022770_2_alg».proof.Proof.Gen.KernelIdeal.Frame
import proofs.«139290_j79319456022770_2_alg».proof.Proof.Gen.ReferenceIdeal
import proofs.«139290_j79319456022770_2_alg».proof.Proof.Gen.Pre_finite_inputs
import proofs.«139290_j79319456022770_2_alg».proof.Proof.Gen.KernelIdeal.Value
import proofs.«139290_j79319456022770_2_alg».proof.Proof.Gen.ReferenceIdeal.Run
import proofs.«139290_j79319456022770_2_alg».proof.Proof.Gen.ReferenceIdeal.Read
import proofs.«139290_j79319456022770_2_alg».proof.Proof.KernelValue
import proofs.«139290_j79319456022770_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `timeFilm` of the arguments, which agree. -/
theorem algebraic : Cert.algebraic_KernelIdeal_ReferenceIdeal := by
  intro m ρ m' ρ' _ hagree
  refine ⟨fun c => Cert.TimeFilm.Kernel.result m c, Cert.TimeFilm.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9⟩ := hagree c
  rw [Cert.ReferenceIdeal.Read.val_main_v23_eq, Cert.TimeFilm.Ref.reference_eq, h0, h1, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
